-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x6 : Shape := ⟨2, ![4194304, 6]⟩
abbrev S3x32 : Shape := ⟨2, ![3, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S35x32 : Shape := ⟨2, ![35, 32]⟩
abbrev S32x3 : Shape := ⟨2, ![32, 3]⟩
abbrev S3 : Shape := ⟨1, ![3]⟩
abbrev S_ : Shape := ⟨0, ![]⟩

class Facts : Prop where
  bcast_S_S4194304x6 : S_.BroadcastsInDim S4194304x6 (![] : Fin 0 → Fin S4194304x6.rank)
  reducesTo_S4194304x6_S_d0_1 : S4194304x6.ReducesTo [0, 1] S_
  h_S_ : 0 < S_.numel
  bcast_S_S3x32 : S_.BroadcastsInDim S3x32 (![] : Fin 0 → Fin S3x32.rank)
  reducesTo_S3x32_S_d0_1 : S3x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S35x32 : S_.BroadcastsInDim S35x32 (![] : Fin 0 → Fin S35x32.rank)
  reducesTo_S35x32_S_d0_1 : S35x32.ReducesTo [0, 1] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg11 : FVec F S32x3 .f32) (main_arg12 : FVec F S3 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x3 .f32 := Host.absf main_arg11
  let main_cst_20 : FVec F S_ .f32 := constant S_ .f32 0x7F800000#32
  let main_v55 : FVec F S32x3 .f32 := broadcastInDim S32x3 ![] bcast_S_S32x3 main_cst_20
  let main_v56 : IVec S32x3 1 := cmpf .olt main_v54 main_v55
  let main_c_21 : IVec S_ 1 := constantI S_ 1 1#1
  let main_v57 : IVec S_ 1 := (fun x v => Host.reduce IntOp.andi x v reducesTo_S32x3_S_d0_1 h_S_) main_v56 main_c_21
  let main_v58 : IVec S_ 1 := andi main_v53 main_v57
  let main_v59 : FVec F S3 .f32 := Host.absf main_arg12
  let main_cst_22 : FVec F S_ .f32 := constant S_ .f32 0x7F800000#32
  let main_v60 : FVec F S3 .f32 := broadcastInDim S3 ![] bcast_S_S3 main_cst_22
  let main_v61 : IVec S3 1 := cmpf .olt main_v59 main_v60
  let main_c_23 : IVec S_ 1 := constantI S_ 1 1#1
  let main_v62 : IVec S_ 1 := (fun x v => Host.reduce IntOp.andi x v reducesTo_S3_S_d0 h_S_) main_v61 main_c_23
  let main_v63 : IVec S_ 1 := andi main_v58 main_v62
  main_v63

def fn_part2 {F : FTy → Type} [FloatOps F] (main_arg7 : FVec F S32x1 .f32) (main_arg8 : FVec F S1 .f32) (main_arg9 : FVec F S35x32 .f32) (main_arg10 : FVec F S32 .f32) (main_arg11 : FVec F S32x3 .f32) (main_arg12 : FVec F S3 .f32) (main_v33 : IVec S_ 1) : IVec S_ 1 :=
  let main_v34 : FVec F S32x1 .f32 := Host.absf main_arg7
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S35x32 .f32 := Host.absf main_arg9
  let main_cst_16 : FVec F S_ .f32 := constant S_ .f32 0x7F800000#32
  let main_v45 : FVec F S35x32 .f32 := broadcastInDim S35x32 ![] bcast_S_S35x32 main_cst_16
  let main_v46 : IVec S35x32 1 := cmpf .olt main_v44 main_v45
  let main_c_17 : IVec S_ 1 := constantI S_ 1 1#1
  let main_v47 : IVec S_ 1 := (fun x v => Host.reduce IntOp.andi x v reducesTo_S35x32_S_d0_1 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_v48 main_v49 main_v50

def fn_part1 {F : FTy → Type} [FloatOps F] (main_arg4 : FVec F S32 .f32) (main_arg5 : FVec F S32x32 .f32) (main_arg6 : FVec F S32 .f32) (main_arg7 : FVec F S32x1 .f32) (main_arg8 : FVec F S1 .f32) (main_arg9 : FVec F S35x32 .f32) (main_arg10 : FVec F S32 .f32) (main_arg11 : FVec F S32x3 .f32) (main_arg12 : FVec F S3 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4194304x6 .f32) (main_arg1 : FVec F S3x32 .f32) (main_arg2 : FVec F S32 .f32) (main_arg3 : FVec F S32x32 .f32) (main_arg4 : FVec F S32 .f32) (main_arg5 : FVec F S32x32 .f32) (main_arg6 : FVec F S32 .f32) (main_arg7 : FVec F S32x1 .f32) (main_arg8 : FVec F S1 .f32) (main_arg9 : FVec F S35x32 .f32) (main_arg10 : FVec F S32 .f32) (main_arg11 : FVec F S32x3 .f32) (main_arg12 : FVec F S3 .f32) : IVec S_ 1 :=
  let main_v0 : FVec F S4194304x6 .f32 := Host.absf main_arg0
  let main_cst : FVec F S_ .f32 := constant S_ .f32 0x7F800000#32
  let main_v1 : FVec F S4194304x6 .f32 := broadcastInDim S4194304x6 ![] bcast_S_S4194304x6 main_cst
  let main_v2 : IVec S4194304x6 1 := cmpf .olt main_v0 main_v1
  let main_c : IVec S_ 1 := constantI S_ 1 1#1
  let main_v3 : IVec S_ 1 := (fun x v => Host.reduce IntOp.andi x v reducesTo_S4194304x6_S_d0_1 h_S_) main_v2 main_c
  let main_v4 : FVec F S3x32 .f32 := Host.absf main_arg1
  let main_cst_0 : FVec F S_ .f32 := constant S_ .f32 0x7F800000#32
  let main_v5 : FVec F S3x32 .f32 := broadcastInDim S3x32 ![] bcast_S_S3x32 main_cst_0
  let main_v6 : IVec S3x32 1 := cmpf .olt main_v4 main_v5
  let main_c_1 : IVec S_ 1 := constantI S_ 1 1#1
  let main_v7 : IVec S_ 1 := (fun x v => Host.reduce IntOp.andi x v reducesTo_S3x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_arg5 main_arg6 main_arg7 main_arg8 main_arg9 main_arg10 main_arg11 main_arg12 main_v13 main_v16
-- ==== Kernel.lean ====
abbrev S4194304x6 : Shape := ⟨2, ![4194304, 6]⟩
abbrev S3x32 : Shape := ⟨2, ![3, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S35x32 : Shape := ⟨2, ![35, 32]⟩
abbrev S32x3 : Shape := ⟨2, ![32, 3]⟩
abbrev S3 : Shape := ⟨1, ![3]⟩
abbrev S1x32 : Shape := ⟨2, ![1, 32]⟩
abbrev S1x1 : Shape := ⟨2, ![1, 1]⟩
abbrev S1x3 : Shape := ⟨2, ![1, 3]⟩
abbrev S4194304x4 : Shape := ⟨2, ![4194304, 4]⟩
abbrev S2048x6 : Shape := ⟨2, ![2048, 6]⟩
abbrev S2048x4 : Shape := ⟨2, ![2048, 4]⟩
abbrev S2048x3 : Shape := ⟨2, ![2048, 3]⟩
abbrev S2048x32 : Shape := ⟨2, ![2048, 32]⟩
abbrev S2048x1 : Shape := ⟨2, ![2048, 1]⟩
abbrev S2048x35 : Shape := ⟨2, ![2048, 35]⟩

abbrev nBuf : Space → Nat
  | .hbm => 20
  | .vmem => 16
  | .smem => 0
  | _ => 0

abbrev bufTy : (tb : Table) → Fin (tcTables nBuf tb) → BufTy
  | .hbm, ⟨0, _⟩ => ⟨S4194304x6, .f32⟩
  | .hbm, ⟨1, _⟩ => ⟨S3x32, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S35x32, .f32⟩
  | .hbm, ⟨10, _⟩ => ⟨S32, .f32⟩
  | .hbm, ⟨11, _⟩ => ⟨S32x3, .f32⟩
  | .hbm, ⟨12, _⟩ => ⟨S3, .f32⟩
  | .hbm, ⟨13, _⟩ => ⟨S1x32, .f32⟩
  | .hbm, ⟨14, _⟩ => ⟨S1x32, .f32⟩
  | .hbm, ⟨15, _⟩ => ⟨S1x32, .f32⟩
  | .hbm, ⟨16, _⟩ => ⟨S1x1, .f32⟩
  | .hbm, ⟨17, _⟩ => ⟨S1x32, .f32⟩
  | .hbm, ⟨18, _⟩ => ⟨S1x3, .f32⟩
  | .hbm, ⟨19, _⟩ => ⟨S4194304x4, .f32⟩
  | .local _ .vmem, ⟨0, _⟩ => ⟨S2048x6, .f32⟩
  | .local _ .vmem, ⟨1, _⟩ => ⟨S2048x6, .f32⟩
  | .local _ .vmem, ⟨2, _⟩ => ⟨S3x32, .f32⟩
  | .local _ .vmem, ⟨3, _⟩ => ⟨S1x32, .f32⟩
  | .local _ .vmem, ⟨4, _⟩ => ⟨S32x32, .f32⟩
  | .local _ .vmem, ⟨5, _⟩ => ⟨S1x32, .f32⟩
  | .local _ .vmem, ⟨6, _⟩ => ⟨S32x32, .f32⟩
  | .local _ .vmem, ⟨7, _⟩ => ⟨S1x32, .f32⟩
  | .local _ .vmem, ⟨8, _⟩ => ⟨S32x1, .f32⟩
  | .local _ .vmem, ⟨9, _⟩ => ⟨S1x1, .f32⟩
  | .local _ .vmem, ⟨10, _⟩ => ⟨S35x32, .f32⟩
  | .local _ .vmem, ⟨11, _⟩ => ⟨S1x32, .f32⟩
  | .local _ .vmem, ⟨12, _⟩ => ⟨S32x3, .f32⟩
  | .local _ .vmem, ⟨13, _⟩ => ⟨S1x3, .f32⟩
  | .local _ .vmem, ⟨14, _⟩ => ⟨S2048x4, .f32⟩
  | .local _ .vmem, ⟨15, _⟩ => ⟨S2048x4, .f32⟩
  | _, _ => ⟨S4194304x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S35x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x3 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x3 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2048x4 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  shapeCasts_S32_S1x32 : S32.ShapeCasts S1x32
  shapeCasts_S1_S1x1 : S1.ShapeCasts S1x1
  shapeCasts_S3_S1x3 : S3.ShapeCasts S1x3
  inb_S2048x6_S2048x6_0_0 : ∀ a, (![0, 0] : Fin 2 → Nat) a + S2048x6.size a ≤ S2048x6.size a
  h_S2048x6 : 0 < S2048x6.numel
  slices_S2048x6_o0_0_S2048x3 : S2048x6.Slices ![0, 0] S2048x3
  bitsLt_bf16_f32 : FTy.bits .bf16 < FTy.bits .f32
  slices_S2048x6_o0_3_S2048x3 : S2048x6.Slices ![0, 3] S2048x3
  inb_S3x32_S3x32_0_0 : ∀ a, (![0, 0] : Fin 2 → Nat) a + S3x32.size a ≤ S3x32.size a
  h_S3x32 : 0 < S3x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  concatenates_S2048x32_S2048x3_S2048x35_d1 : Shape.Concatenates [S2048x32, S2048x3] S2048x35 1
  inb_S35x32_S35x32_0_0 : ∀ a, (![0, 0] : Fin 2 → Nat) a + S35x32.size a ≤ S35x32.size a
  h_S35x32 : 0 < S35x32.numel
  inb_S32x3_S32x3_0_0 : ∀ a, (![0, 0] : Fin 2 → Nat) a + S32x3.size a ≤ S32x3.size a
  h_S32x3 : 0 < S32x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2048x3 : S1x3.Broadcasts S2048x3
  concatenates_S2048x3_S2048x1_S2048x4_d1 : Shape.Concatenates [S2048x3, S2048x1] S2048x4 1
  inb_S2048x4_S2048x4_0_0 : ∀ a, (![0, 0] : Fin 2 → Nat) a + S2048x4.size a ≤ S2048x4.size a
  h_S2048x4 : 0 < S2048x4.numel
  dot_S2048x3_S3x32_S2048x32_1_0_0_1_n_n_wf : DotDims.WF S2048x3 S3x32 S2048x32 [1] [0] [0] [1] [] []
  dot_S2048x32_S32x32_S2048x32_1_0_0_1_n_n_wf : DotDims.WF S2048x32 S32x32 S2048x32 [1] [0] [0] [1] [] []
  dot_S2048x32_S32x1_S2048x1_1_0_0_1_n_n_wf : DotDims.WF S2048x32 S32x1 S2048x1 [1] [0] [0] [1] [] []
  dot_S2048x35_S35x32_S2048x32_1_0_0_1_n_n_wf : DotDims.WF S2048x35 S35x32 S2048x32 [1] [0] [0] [1] [] []
  dot_S2048x32_S32x3_S2048x3_1_0_0_1_n_n_wf : DotDims.WF S2048x32 S32x3 S2048x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x6.size a ≤ S4194304x6.size a
  hwx0_0 : ∀ i : grid0.Coords, EltTy.bits .f32 = 32 ∨ (Rect.block (s := S4194304x6) S2048x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x32.size a ≤ S3x32.size a
  hwx0_1 : ∀ i : grid0.Coords, EltTy.bits .f32 = 32 ∨ (Rect.block (s := S3x32) S3x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x1.size a ≤ S32x1.size a
  hwx0_7 : ∀ i : grid0.Coords, EltTy.bits .f32 = 32 ∨ (Rect.block (s := S32x1) S32x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S35x32.size a ≤ S35x32.size a
  hwx0_9 : ∀ i : grid0.Coords, EltTy.bits .f32 = 32 ∨ (Rect.block (s := S35x32) S35x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32x3.size a ≤ S32x3.size a
  hwx0_11 : ∀ i : grid0.Coords, EltTy.bits .f32 = 32 ∨ (Rect.block (s := S32x3) S32x3.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x3.size a ≤ S1x3.size a
  hwx0_12 : ∀ i : grid0.Coords, EltTy.bits .f32 = 32 ∨ (Rect.block (s := S1x3) S1x3.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x4.size a ≤ S4194304x4.size a
  hwx0_13 : ∀ i : grid0.Coords, EltTy.bits .f32 = 32 ∨ (Rect.block (s := S4194304x4) S2048x4.size (cc0_transform_13 i) (hinb0_13 i)).WholeWords (EltTy.packing .f32)

variable [Facts₀]

def dot_S2048x3_S3x32_S2048x32_1_0_0_1_n_n : DotDims S2048x3 S3x32 S2048x32 where
  lhsContracting := [1]
  rhsContracting := [0]
  lhsNonContracting := [0]
  rhsNonContracting := [1]
  lhsBatch := []
  rhsBatch := []
  wf := dot_S2048x3_S3x32_S2048x32_1_0_0_1_n_n_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf
def dot_S2048x35_S35x32_S2048x32_1_0_0_1_n_n : DotDims S2048x35 S35x32 S2048x32 where
  lhsContracting := [1]
  rhsContracting := [0]
  lhsNonContracting := [0]
  rhsNonContracting := [1]
  lhsBatch := []
  rhsBatch := []
  wf := dot_S2048x35_S35x32_S2048x32_1_0_0_1_n_n_wf
def dot_S2048x32_S32x3_S2048x3_1_0_0_1_n_n : DotDims S2048x32 S32x3 S2048x3 where
  lhsContracting := [1]
  rhsContracting := [0]
  lhsNonContracting := [0]
  rhsNonContracting := [1]
  lhsBatch := []
  rhsBatch := []
  wf := dot_S2048x32_S32x3_S2048x3_1_0_0_1_n_n_wf

abbrev win0_0 : Pipeline.Window sig grid0 :=
  Pipeline.Window.ofSpec (Memref.whole main_arg0) S2048x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S35x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S32x3.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1x3.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6) S2048x4.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S4194304x6 : Shape := ⟨2, ![4194304, 6]⟩
abbrev S3x32 : Shape := ⟨2, ![3, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S35x32 : Shape := ⟨2, ![35, 32]⟩
abbrev S32x3 : Shape := ⟨2, ![32, 3]⟩
abbrev S3 : Shape := ⟨1, ![3]⟩
abbrev S4194304x3 : Shape := ⟨2, ![4194304, 3]⟩
abbrev S4194304x32 : Shape := ⟨2, ![4194304, 32]⟩
abbrev S1x32 : Shape := ⟨2, ![1, 32]⟩
abbrev S_ : Shape := ⟨0, ![]⟩
abbrev S4194304x1 : Shape := ⟨2, ![4194304, 1]⟩
abbrev S1x1 : Shape := ⟨2, ![1, 1]⟩
abbrev S4194304x35 : Shape := ⟨2, ![4194304, 35]⟩
abbrev S1x3 : Shape := ⟨2, ![1, 3]⟩
abbrev S4194304x4 : Shape := ⟨2, ![4194304, 4]⟩

abbrev nBuf : Space → Nat
  | .hbm => 50
  | .vmem => 0
  | .smem => 0
  | _ => 0

abbrev bufTy : (tb : Table) → Fin (tcTables nBuf tb) → BufTy
  | .hbm, ⟨0, _⟩ => ⟨S4194304x6, .f32⟩
  | .hbm, ⟨1, _⟩ => ⟨S3x32, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S35x32, .f32⟩
  | .hbm, ⟨10, _⟩ => ⟨S32, .f32⟩
  | .hbm, ⟨11, _⟩ => ⟨S32x3, .f32⟩
  | .hbm, ⟨12, _⟩ => ⟨S3, .f32⟩
  | .hbm, ⟨13, _⟩ => ⟨S4194304x3, .f32⟩
  | .hbm, ⟨14, _⟩ => ⟨S4194304x3, .f32⟩
  | .hbm, ⟨15, _⟩ => ⟨S4194304x32, .f32⟩
  | .hbm, ⟨16, _⟩ => ⟨S1x32, .f32⟩
  | .hbm, ⟨17, _⟩ => ⟨S4194304x32, .f32⟩
  | .hbm, ⟨18, _⟩ => ⟨S4194304x32, .f32⟩
  | .hbm, ⟨19, _⟩ => ⟨S_, .f32⟩
  | .hbm, ⟨20, _⟩ => ⟨S4194304x32, .f32⟩
  | .hbm, ⟨21, _⟩ => ⟨S4194304x32, .f32⟩
  | .hbm, ⟨22, _⟩ => ⟨S4194304x32, .f32⟩
  | .hbm, ⟨23, _⟩ => ⟨S1x32, .f32⟩
  | .hbm, ⟨24, _⟩ => ⟨S4194304x32, .f32⟩
  | .hbm, ⟨25, _⟩ => ⟨S4194304x32, .f32⟩
  | .hbm, ⟨26, _⟩ => ⟨S_, .f32⟩
  | .hbm, ⟨27, _⟩ => ⟨S4194304x32, .f32⟩
  | .hbm, ⟨28, _⟩ => ⟨S4194304x32, .f32⟩
  | .hbm, ⟨29, _⟩ => ⟨S4194304x1, .f32⟩
  | .hbm, ⟨30, _⟩ => ⟨S1x1, .f32⟩
  | .hbm, ⟨31, _⟩ => ⟨S4194304x1, .f32⟩
  | .hbm, ⟨32, _⟩ => ⟨S4194304x1, .f32⟩
  | .hbm, ⟨33, _⟩ => ⟨S4194304x32, .f32⟩
  | .hbm, ⟨34, _⟩ => ⟨S1x32, .f32⟩
  | .hbm, ⟨35, _⟩ => ⟨S4194304x32, .f32⟩
  | .hbm, ⟨36, _⟩ => ⟨S4194304x32, .f32⟩
  | .hbm, ⟨37, _⟩ => ⟨S4194304x35, .f32⟩
  | .hbm, ⟨38, _⟩ => ⟨S4194304x32, .f32⟩
  | .hbm, ⟨39, _⟩ => ⟨S1x32, .f32⟩
  | .hbm, ⟨40, _⟩ => ⟨S4194304x32, .f32⟩
  | .hbm, ⟨41, _⟩ => ⟨S4194304x32, .f32⟩
  | .hbm, ⟨42, _⟩ => ⟨S_, .f32⟩
  | .hbm, ⟨43, _⟩ => ⟨S4194304x32, .f32⟩
  | .hbm, ⟨44, _⟩ => ⟨S4194304x32, .f32⟩
  | .hbm, ⟨45, _⟩ => ⟨S4194304x3, .f32⟩
  | .hbm, ⟨46, _⟩ => ⟨S1x3, .f32⟩
  | .hbm, ⟨47, _⟩ => ⟨S4194304x3, .f32⟩
  | .hbm, ⟨48, _⟩ => ⟨S4194304x3, .f32⟩
  | .hbm, ⟨49, _⟩ => ⟨S4194304x4, .f32⟩
  | _, _ => ⟨S4194304x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call0_cst : Ref sig .tc := ⟨.hbm, 19, rfl⟩
abbrev main_call0_v0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call1_cst : Ref sig .tc := ⟨.hbm, 26, rfl⟩
abbrev main_call1_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call2_cst : Ref sig .tc := ⟨.hbm, 42, rfl⟩
abbrev main_call2_v0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]

class Facts₀ : Prop where
  slices_S4194304x6_S4194304x3_0_0 : S4194304x6.Slices ![0, 0] S4194304x3
  slices_S4194304x6_S4194304x3_0_3 : S4194304x6.Slices ![0, 3] S4194304x3
  bcast_S32_S1x32_1 : S32.BroadcastsInDim S1x32 (![1] : Fin 1 → Fin S1x32.rank)
  bcast_S1x32_S4194304x32_0_1 : S1x32.BroadcastsInDim S4194304x32 (![0, 1] : Fin 2 → Fin S4194304x32.rank)
  bcast_S_S4194304x32 : S_.BroadcastsInDim S4194304x32 (![] : Fin 0 → Fin S4194304x32.rank)
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  concatenates_S4194304x32_S4194304x3_S4194304x35_d1 : Shape.Concatenates [S4194304x32, S4194304x3] S4194304x35 1
  bcast_S3_S1x3_1 : S3.BroadcastsInDim S1x3 (![1] : Fin 1 → Fin S1x3.rank)
  bcast_S1x3_S4194304x3_0_1 : S1x3.BroadcastsInDim S4194304x3 (![0, 1] : Fin 2 → Fin S4194304x3.rank)
  concatenates_S4194304x3_S4194304x1_S4194304x4_d1 : Shape.Concatenates [S4194304x3, S4194304x1] S4194304x4 1
  dot_S4194304x3_S3x32_S4194304x32_1_0_0_1_n_n_wf : DotDims.WF S4194304x3 S3x32 S4194304x32 [1] [0] [0] [1] [] []
  dot_S4194304x32_S32x32_S4194304x32_1_0_0_1_n_n_wf : DotDims.WF S4194304x32 S32x32 S4194304x32 [1] [0] [0] [1] [] []
  dot_S4194304x32_S32x1_S4194304x1_1_0_0_1_n_n_wf : DotDims.WF S4194304x32 S32x1 S4194304x1 [1] [0] [0] [1] [] []
  dot_S4194304x35_S35x32_S4194304x32_1_0_0_1_n_n_wf : DotDims.WF S4194304x35 S35x32 S4194304x32 [1] [0] [0] [1] [] []
  dot_S4194304x32_S32x3_S4194304x3_1_0_0_1_n_n_wf : DotDims.WF S4194304x32 S32x3 S4194304x3 [1] [0] [0] [1] [] []

variable [Facts₀]

def dot_S4194304x3_S3x32_S4194304x32_1_0_0_1_n_n : DotDims S4194304x3 S3x32 S4194304x32 where
  lhsContracting := [1]
  rhsContracting := [0]
  lhsNonContracting := [0]
  rhsNonContracting := [1]
  lhsBatch := []
  rhsBatch := []
  wf := dot_S4194304x3_S3x32_S4194304x32_1_0_0_1_n_n_wf
def dot_S4194304x32_S32x32_S4194304x32_1_0_0_1_n_n : DotDims S4194304x32 S32x32 S4194304x32 where
  lhsContracting := [1]
  rhsContracting := [0]
  lhsNonContracting := [0]
  rhsNonContracting := [1]
  lhsBatch := []
  rhsBatch := []
  wf := dot_S4194304x32_S32x32_S4194304x32_1_0_0_1_n_n_wf
def dot_S4194304x32_S32x1_S4194304x1_1_0_0_1_n_n : DotDims S4194304x32 S32x1 S4194304x1 where
  lhsContracting := [1]
  rhsContracting := [0]
  lhsNonContracting := [0]
  rhsNonContracting := [1]
  lhsBatch := []
  rhsBatch := []
  wf := dot_S4194304x32_S32x1_S4194304x1_1_0_0_1_n_n_wf
def dot_S4194304x35_S35x32_S4194304x32_1_0_0_1_n_n : DotDims S4194304x35 S35x32 S4194304x32 where
  lhsContracting := [1]
  rhsContracting := [0]
  lhsNonContracting := [0]
  rhsNonContracting := [1]
  lhsBatch := []
  rhsBatch := []
  wf := dot_S4194304x35_S35x32_S4194304x32_1_0_0_1_n_n_wf
def dot_S4194304x32_S32x3_S4194304x3_1_0_0_1_n_n : DotDims S4194304x32 S32x3 S4194304x3 where
  lhsContracting := [1]
  rhsContracting := [0]
  lhsNonContracting := [0]
  rhsNonContracting := [1]
  lhsBatch := []
  rhsBatch := []
  wf := dot_S4194304x32_S32x3_S4194304x3_1_0_0_1_n_n_wf

class Facts : Prop extends Facts₀ where

variable [Facts]
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.Mlp.lean ====
/-
  The network both programs compute, as ONE function of a row of the input.

  A row `x` of the input holds a point (entries 0..2) and a viewing direction (entries 3..5). The point goes
  through two rectified dense layers of width 32 (`hidden`); from that hidden row a dense layer gives 32
  features and another gives one density; the features, with the viewing direction set beside them (35
  entries), go through one more rectified dense layer of width 32 and a last dense layer to three colours;
  the output row is the three colours followed by the density (`row`). The whole `[4194304, 4]` result reads,
  at `(n, q)`, entry `q` of `row` of row `n` of the input (`network`).

  The rectifier's threshold is kept as the zero word both programs print, so neither side ever evaluates it.
-/
import proofs.«122046_j1039382086435_2_alg».proof.Proof.LibRowLayers

noncomputable section

namespace Cert.Mlp

open Idealize.ShloMosaic Idealize.ShloMosaic.ValueIdx Cert.RowLayers

/-- The rectifier's threshold: the float word of `0.0`, at the exact instance. -/
abbrev zero : EReal := Ideal.ofBits .f32 0x00000000#32

/-- The point's three coordinates through the two rectified dense layers. -/
def hidden (x : Fin 6 → EReal)
    (w0 : (⟨2, ![3, 32]⟩ : Shape).Idx → EReal) (b0 : Fin 32 → EReal)
    (w1 : (⟨2, ![32, 32]⟩ : Shape).Idx → EReal) (b1 : Fin 32 → EReal) : Fin 32 → EReal :=
  relu zero (dense (relu zero (dense (fun k : Fin 3 => x ⟨0 + k.val, by have := k.isLt; omega⟩) w0 b0)) w1 b1)

/-- One row of the result: three colours, then the density. -/
def row (x : Fin 6 → EReal)
    (w0 : (⟨2, ![3, 32]⟩ : Shape).Idx → EReal) (b0 : Fin 32 → EReal)
    (w1 : (⟨2, ![32, 32]⟩ : Shape).Idx → EReal) (b1 : Fin 32 → EReal)
    (wf : (⟨2, ![32, 32]⟩ : Shape).Idx → EReal) (bf : Fin 32 → EReal)
    (ws : (⟨2, ![32, 1]⟩ : Shape).Idx → EReal) (bs : Fin 1 → EReal)
    (wv : (⟨2, ![35, 32]⟩ : Shape).Idx → EReal) (bv : Fin 32 → EReal)
    (wr : (⟨2, ![32, 3]⟩ : Shape).Idx → EReal) (br : Fin 3 → EReal) : Fin 4 → EReal :=
  join (A := 3) (B := 1) rfl
    (dense (relu zero (dense
      (join (A := 32) (B := 3) rfl (dense (hidden x w0 b0 w1 b1) wf bf) (fun k : Fin 3 => x ⟨3 + k.val, by have := k.isLt; omega⟩))
      wv bv)) wr br)
    (dense (hidden x w0 b0 w1 b1) ws bs)

/-- The whole result array as a function of the thirteen argument arrays, index by index. -/
def network (x : (⟨2, ![4194304, 6]⟩ : Shape).Idx → EReal)
    (w0 : (⟨2, ![3, 32]⟩ : Shape).Idx → EReal) (b0 : (⟨1, ![32]⟩ : Shape).Idx → EReal)
    (w1 : (⟨2, ![32, 32]⟩ : Shape).Idx → EReal) (b1 : (⟨1, ![32]⟩ : Shape).Idx → EReal)
    (wf : (⟨2, ![32, 32]⟩ : Shape).Idx → EReal) (bf : (⟨1, ![32]⟩ : Shape).Idx → EReal)
    (ws : (⟨2, ![32, 1]⟩ : Shape).Idx → EReal) (bs : (⟨1, ![1]⟩ : Shape).Idx → EReal)
    (wv : (⟨2, ![35, 32]⟩ : Shape).Idx → EReal) (bv : (⟨1, ![32]⟩ : Shape).Idx → EReal)
    (wr : (⟨2, ![32, 3]⟩ : Shape).Idx → EReal) (br : (⟨1, ![3]⟩ : Shape).Idx → EReal) :
    (⟨2, ![4194304, 4]⟩ : Shape).Idx → EReal :=
  fun i => row (rowOf x (i 0)) w0 (fun j => b0 (ix1 j)) w1 (fun j => b1 (ix1 j)) wf (fun j => bf (ix1 j))
    ws (fun j => bs (ix1 j)) wv (fun j => bv (ix1 j)) wr (fun j => br (ix1 j)) (i 1)

end Cert.Mlp

end
-- ==== Proof.KernelRows.lean ====
/-
  The kernel's body, read one row at a time.

  The body loads a `[2048, 6]` block of the input and the (whole) weight matrices and `[1, ·]` bias rows, and stores
  ONE `[2048, 4]` value. Each of its five matrix products contracts the columns of its left operand with the rows of
  its right one (`prod_*`), so each dense layer acts on every row of the block alone, and row `p` of the stored value
  is the network's `Mlp.row` of row `p` of the input block (`stored_row`). Changes of float format are identities
  on the extended reals and the `[1, ·] → [1, ·]` shape casts are identities on any values.
-/
import proofs.«122046_j1039382086435_2_alg».proof.Proof.Gen.KernelIdeal.Skeleton
import proofs.«122046_j1039382086435_2_alg».proof.Proof.Mlp

noncomputable section

namespace Cert.KernelIdeal.Rows

open Cert.KernelIdeal Cert.KernelIdeal.Gen Idealize.ShloMosaic Idealize.ShloMosaic.ValueIdx Cert.RowLayers

/-! ## The five products -/

/-- The first layer's product, `[2048, 3] × [3, 32]`, is rows times columns. -/
theorem prod_3_32 : RowsTimesCols dot_S2048x3_S3x32_S2048x32_1_0_0_1_n_n where
  rank := rfl
  size := rfl
  lhs0 := fun j q => by
    unfold DotDims.lhsIdx
    rw [dif_neg (show ¬(0 : Fin S2048x3.rank) ∈ dot_S2048x3_S3x32_S2048x32_1_0_0_1_n_n.lhsBatch by decide), dif_pos (show (0 : Fin S2048x3.rank) ∈ dot_S2048x3_S3x32_S2048x32_1_0_0_1_n_n.lhsNonContracting by decide)]
    rfl
  lhs1 := fun j q => dot_S2048x3_S3x32_S2048x32_1_0_0_1_n_n.lhsIdx_val_of_single rfl j q
  rhs0 := fun j q => dot_S2048x3_S3x32_S2048x32_1_0_0_1_n_n.rhsIdx_val_of_single rfl j q
  rhs1 := fun j q => by
    unfold DotDims.rhsIdx
    rw [dif_neg (show ¬(1 : Fin S3x32.rank) ∈ dot_S2048x3_S3x32_S2048x32_1_0_0_1_n_n.rhsBatch by decide), dif_pos (show (1 : Fin S3x32.rank) ∈ dot_S2048x3_S3x32_S2048x32_1_0_0_1_n_n.rhsNonContracting by decide)]
    rfl

/-- The `[2048, 32] × [32, 32]` products (second layer, features) are rows times columns. -/
theorem prod_32_32 : RowsTimesCols dot_S2048x32_S32x32_S2048x32_1_0_0_1_n_n where
  rank := rfl
  size := rfl
  lhs0 := fun j q => by
    unfold DotDims.lhsIdx
    rw [dif_neg (show ¬(0 : Fin S2048x32.rank) ∈ dot_S2048x32_S32x32_S2048x32_1_0_0_1_n_n.lhsBatch by decide), dif_pos (show (0 : Fin S2048x32.rank) ∈ dot_S2048x32_S32x32_S2048x32_1_0_0_1_n_n.lhsNonContracting by decide)]
    rfl
  lhs1 := fun j q => dot_S2048x32_S32x32_S2048x32_1_0_0_1_n_n.lhsIdx_val_of_single rfl j q
  rhs0 := fun j q => dot_S2048x32_S32x32_S2048x32_1_0_0_1_n_n.rhsIdx_val_of_single rfl j q
  rhs1 := fun j q => by
    unfold DotDims.rhsIdx
    rw [dif_neg (show ¬(1 : Fin S32x32.rank) ∈ dot_S2048x32_S32x32_S2048x32_1_0_0_1_n_n.rhsBatch by decide), dif_pos (show (1 : Fin S32x32.rank) ∈ dot_S2048x32_S32x32_S2048x32_1_0_0_1_n_n.rhsNonContracting by decide)]
    rfl

/-- The density's product, `[2048, 32] × [32, 1]`, is rows times columns. -/
theorem prod_32_1 : RowsTimesCols dot_S2048x32_S32x1_S2048x1_1_0_0_1_n_n where
  rank := rfl
  size := rfl
  lhs0 := fun j q => by
    unfold DotDims.lhsIdx
    rw [dif_neg (show ¬(0 : Fin S2048x32.rank) ∈ dot_S2048x32_S32x1_S2048x1_1_0_0_1_n_n.lhsBatch by decide), dif_pos (show (0 : Fin S2048x32.rank) ∈ dot_S2048x32_S32x1_S2048x1_1_0_0_1_n_n.lhsNonContracting by decide)]
    rfl
  lhs1 := fun j q => dot_S2048x32_S32x1_S2048x1_1_0_0_1_n_n.lhsIdx_val_of_single rfl j q
  rhs0 := fun j q => dot_S2048x32_S32x1_S2048x1_1_0_0_1_n_n.rhsIdx_val_of_single rfl j q
  rhs1 := fun j q => by
    unfold DotDims.rhsIdx
    rw [dif_neg (show ¬(1 : Fin S32x1.rank) ∈ dot_S2048x32_S32x1_S2048x1_1_0_0_1_n_n.rhsBatch by decide), dif_pos (show (1 : Fin S32x1.rank) ∈ dot_S2048x32_S32x1_S2048x1_1_0_0_1_n_n.rhsNonContracting by decide)]
    rfl

/-- The view layer's product, `[2048, 35] × [35, 32]`, is rows times columns. -/
theorem prod_35_32 : RowsTimesCols dot_S2048x35_S35x32_S2048x32_1_0_0_1_n_n where
  rank := rfl
  size := rfl
  lhs0 := fun j q => by
    unfold DotDims.lhsIdx
    rw [dif_neg (show ¬(0 : Fin S2048x35.rank) ∈ dot_S2048x35_S35x32_S2048x32_1_0_0_1_n_n.lhsBatch by decide), dif_pos (show (0 : Fin S2048x35.rank) ∈ dot_S2048x35_S35x32_S2048x32_1_0_0_1_n_n.lhsNonContracting by decide)]
    rfl
  lhs1 := fun j q => dot_S2048x35_S35x32_S2048x32_1_0_0_1_n_n.lhsIdx_val_of_single rfl j q
  rhs0 := fun j q => dot_S2048x35_S35x32_S2048x32_1_0_0_1_n_n.rhsIdx_val_of_single rfl j q
  rhs1 := fun j q => by
    unfold DotDims.rhsIdx
    rw [dif_neg (show ¬(1 : Fin S35x32.rank) ∈ dot_S2048x35_S35x32_S2048x32_1_0_0_1_n_n.rhsBatch by decide), dif_pos (show (1 : Fin S35x32.rank) ∈ dot_S2048x35_S35x32_S2048x32_1_0_0_1_n_n.rhsNonContracting by decide)]
    rfl

/-- The colour layer's product, `[2048, 32] × [32, 3]`, is rows times columns. -/
theorem prod_32_3 : RowsTimesCols dot_S2048x32_S32x3_S2048x3_1_0_0_1_n_n where
  rank := rfl
  size := rfl
  lhs0 := fun j q => by
    unfold DotDims.lhsIdx
    rw [dif_neg (show ¬(0 : Fin S2048x32.rank) ∈ dot_S2048x32_S32x3_S2048x3_1_0_0_1_n_n.lhsBatch by decide), dif_pos (show (0 : Fin S2048x32.rank) ∈ dot_S2048x32_S32x3_S2048x3_1_0_0_1_n_n.lhsNonContracting by decide)]
    rfl
  lhs1 := fun j q => dot_S2048x32_S32x3_S2048x3_1_0_0_1_n_n.lhsIdx_val_of_single rfl j q
  rhs0 := fun j q => dot_S2048x32_S32x3_S2048x3_1_0_0_1_n_n.rhsIdx_val_of_single rfl j q
  rhs1 := fun j q => by
    unfold DotDims.rhsIdx
    rw [dif_neg (show ¬(1 : Fin S32x3.rank) ∈ dot_S2048x32_S32x3_S2048x3_1_0_0_1_n_n.rhsBatch by decide), dif_pos (show (1 : Fin S32x3.rank) ∈ dot_S2048x32_S32x3_S2048x3_1_0_0_1_n_n.rhsNonContracting by decide)]
    rfl

/-! ## The body's values on a row -/

/-- The hidden row after the two rectified layers, from the block's row `p`. -/
theorem hidden_row (x0 : Vec Ideal S2048x6 .f32) (x1 : Vec Ideal S3x32 .f32) (x2 : Vec Ideal S1x32 .f32)
    (x3 : Vec Ideal S32x32 .f32) (x4 : Vec Ideal S1x32 .f32) (p : Fin 2048) :
    rowOf (k0_pay3 (F := Ideal) x0 x1 x2 x3 x4) p = Mlp.hidden (rowOf x0 p) x1 (rowOf x2 0) x3 (rowOf x4 0) := by
  unfold k0_pay3 Mlp.hidden
  dsimp only
  rw [rowOf_maximumf_splat, rowOf_dense_device prod_32_32, rowOf_truncf, rowOf_maximumf_splat,
    rowOf_dense_device prod_3_32, rowOf_truncf, rowOf_slice_cols, shapeCast_self, shapeCast_self]
  rfl

/-- The feature row: a dense layer of the hidden row. -/
theorem feature_row (x0 : Vec Ideal S2048x6 .f32) (x1 : Vec Ideal S3x32 .f32) (x2 : Vec Ideal S1x32 .f32)
    (x3 : Vec Ideal S32x32 .f32) (x4 : Vec Ideal S1x32 .f32) (x5 : Vec Ideal S32x32 .f32) (x6 : Vec Ideal S1x32 .f32) (p : Fin 2048) :
    rowOf (k0_pay4 (F := Ideal) x0 x1 x2 x3 x4 x5 x6) p
      = dense (Mlp.hidden (rowOf x0 p) x1 (rowOf x2 0) x3 (rowOf x4 0)) x5 (rowOf x6 0) := by
  unfold k0_pay4
  dsimp only
  rw [rowOf_dense_device prod_32_32, rowOf_truncf, hidden_row, shapeCast_self]
  rfl

/-- Row `p` of the value the body stores is the network's row function of row `p` of the input block. -/
theorem stored_row (x0 : Vec Ideal S2048x6 .f32) (x1 : Vec Ideal S3x32 .f32) (x2 : Vec Ideal S1x32 .f32)
    (x3 : Vec Ideal S32x32 .f32) (x4 : Vec Ideal S1x32 .f32) (x5 : Vec Ideal S32x32 .f32) (x6 : Vec Ideal S1x32 .f32)
    (x7 : Vec Ideal S32x1 .f32) (x8 : Vec Ideal S1x1 .f32) (x9 : Vec Ideal S35x32 .f32) (x10 : Vec Ideal S1x32 .f32)
    (x11 : Vec Ideal S32x3 .f32) (x12 : Vec Ideal S1x3 .f32) (p : Fin 2048) :
    rowOf (k0_pay1 (F := Ideal) (k0_pay2 x0) (k0_pay4 x0 x1 x2 x3 x4 x5 x6) (k0_pay5 x7) (k0_pay6 x8) (k0_pay7 x0 x1 x2 x3 x4) x9 x10 x11 x12) p
      = Mlp.row (rowOf x0 p) x1 (rowOf x2 0) x3 (rowOf x4 0) x5 (rowOf x6 0) x7 (rowOf x8 0) x9 (rowOf x10 0) x11 (rowOf x12 0) := by
  unfold k0_pay1 k0_pay2 k0_pay5 k0_pay6 k0_pay7 Mlp.row
  dsimp only
  rw [rowOf_concat_cols (A := 3) (B := 1) (C := 4) _ _ _ rfl, rowOf_dense_device prod_32_3, rowOf_truncf, rowOf_maximumf_splat,
    rowOf_dense_device prod_35_32, rowOf_truncf, rowOf_concat_cols (A := 32) (B := 3) (C := 35) _ _ _ rfl, feature_row, rowOf_slice_cols,
    rowOf_dense_device prod_32_1, rowOf_truncf, hidden_row, shapeCast_self, shapeCast_self, shapeCast_self]
  rfl

end Cert.KernelIdeal.Rows

end
-- ==== Proof.KernelArray.lean ====
/-
  From the kernel's blocks to the whole result array.

  The grid has 2048 points; point `t` stages rows `2048·t … 2048·t + 2047` of the input (window 0), every weight
  matrix whole (windows 1, 3, …, 11: block index 0 at every point) and every bias vector, reshaped by the host to one
  row, whole (windows 2, 4, …, 12), and writes back rows `2048·t …` of the `[4194304, 4]` result (window 13). Since the
  stored value's row `p` is the network's row function of the input block's row `p` (`Rows.stored_row`), what point
  `t` writes back is block `t` of `Mlp.network` of the argument arrays (`flushed_eq`); the 2048 blocks cover every row
  (`covered`: row `r` is in block `r / 2048`), so the result array ends holding `Mlp.network` (`final`, `run`).
-/
import proofs.«122046_j1039382086435_2_alg».proof.Proof.Gen.KernelIdeal.Value
import proofs.«122046_j1039382086435_2_alg».proof.Proof.KernelRows
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Cert.RowLayers
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-! ## What each input window holds at a point -/

/-- Window 0's block at point `t` is rows `2048·t …` of the input: its row `p` is the input's row `2048·t + p`. -/
theorem input_row (c : Dev nD) (t : Fin cfg0.N) (p : Fin 2048) (n : Fin 4194304) (hn : n.val = t.val * 2048 + p.val) :
    rowOf (iblk m c 0 t : Vec Ideal S2048x6 .f32) p = rowOf (m ((c : Thread nD τ).loc main_arg0)) n := by
  funext k
  show iblk m c 0 t (ix2 p k) = m ((c : Thread nD τ).loc main_arg0) (ix2 n k)
  unfold iblk
  rw [View.read_apply]
  show V m c main_arg0 _ = _
  rw [V_main_arg0]
  refine congrArg (m ((c : Thread nD τ).loc main_arg0)) (funext fun a => Fin.ext ?_)
  match a with
  | ⟨0, _⟩ =>
    show win0_0.index t 0 * 2048 + 1 * p.val = n.val
    rw [show win0_0.index t 0 = win0_13.index t ⟨0, by decide⟩ from rfl, Value.idx_pt13 t, hn]; omega
  | ⟨1, _⟩ => show win0_0.index t 1 * 6 + 1 * k.val = k.val; rw [show win0_0.index t 1 = 0 from rfl]; omega

/-- Window 1 stages the whole `[3, 32]` weight matrix at every point: its one block is the array. -/
theorem weights1 (c : Dev nD) (t : Fin cfg0.N) : (iblk m c 1 t : Vec Ideal S3x32 .f32) = m ((c : Thread nD τ).loc main_arg1) := by
  funext y
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 3 + 1 * (y 0).val = (y 0).val; rw [show win0_1.index t 0 = 0 from rfl]; omega
  | ⟨1, _⟩ => show win0_1.index t 1 * 32 + 1 * (y 1).val = (y 1).val; rw [show win0_1.index t 1 = 0 from rfl]; omega

/-- Window 3 stages the whole `[32, 32]` weight matrix at every point: its one block is the array. -/
theorem weights3 (c : Dev nD) (t : Fin cfg0.N) : (iblk m c 3 t : Vec Ideal S32x32 .f32) = m ((c : Thread nD τ).loc main_arg3) := by
  funext y
  unfold iblk
  rw [View.read_apply]
  show V m c main_arg3 _ = _
  rw [V_main_arg3]
  refine congrArg (m ((c : Thread nD τ).loc main_arg3)) (funext fun a => Fin.ext ?_)
  match a with
  | ⟨0, _⟩ => show win0_3.index t 0 * 32 + 1 * (y 0).val = (y 0).val; rw [show win0_3.index t 0 = 0 from rfl]; omega
  | ⟨1, _⟩ => show win0_3.index t 1 * 32 + 1 * (y 1).val = (y 1).val; rw [show win0_3.index t 1 = 0 from rfl]; omega

/-- Window 5 stages the whole `[32, 32]` weight matrix at every point: its one block is the array. -/
theorem weights5 (c : Dev nD) (t : Fin cfg0.N) : (iblk m c 5 t : Vec Ideal S32x32 .f32) = m ((c : Thread nD τ).loc main_arg5) := by
  funext y
  unfold iblk
  rw [View.read_apply]
  show V m c main_arg5 _ = _
  rw [V_main_arg5]
  refine congrArg (m ((c : Thread nD τ).loc main_arg5)) (funext fun a => Fin.ext ?_)
  match a with
  | ⟨0, _⟩ => show win0_5.index t 0 * 32 + 1 * (y 0).val = (y 0).val; rw [show win0_5.index t 0 = 0 from rfl]; omega
  | ⟨1, _⟩ => show win0_5.index t 1 * 32 + 1 * (y 1).val = (y 1).val; rw [show win0_5.index t 1 = 0 from rfl]; omega

/-- Window 7 stages the whole `[32, 1]` weight matrix at every point: its one block is the array. -/
theorem weights7 (c : Dev nD) (t : Fin cfg0.N) : (iblk m c 7 t : Vec Ideal S32x1 .f32) = m ((c : Thread nD τ).loc main_arg7) := by
  funext y
  unfold iblk
  rw [View.read_apply]
  show V m c main_arg7 _ = _
  rw [V_main_arg7]
  refine congrArg (m ((c : Thread nD τ).loc main_arg7)) (funext fun a => Fin.ext ?_)
  match a with
  | ⟨0, _⟩ => show win0_7.index t 0 * 32 + 1 * (y 0).val = (y 0).val; rw [show win0_7.index t 0 = 0 from rfl]; omega
  | ⟨1, _⟩ => show win0_7.index t 1 * 1 + 1 * (y 1).val = (y 1).val; rw [show win0_7.index t 1 = 0 from rfl]; omega

/-- Window 9 stages the whole `[35, 32]` weight matrix at every point: its one block is the array. -/
theorem weights9 (c : Dev nD) (t : Fin cfg0.N) : (iblk m c 9 t : Vec Ideal S35x32 .f32) = m ((c : Thread nD τ).loc main_arg9) := by
  funext y
  unfold iblk
  rw [View.read_apply]
  show V m c main_arg9 _ = _
  rw [V_main_arg9]
  refine congrArg (m ((c : Thread nD τ).loc main_arg9)) (funext fun a => Fin.ext ?_)
  match a with
  | ⟨0, _⟩ => show win0_9.index t 0 * 35 + 1 * (y 0).val = (y 0).val; rw [show win0_9.index t 0 = 0 from rfl]; omega
  | ⟨1, _⟩ => show win0_9.index t 1 * 32 + 1 * (y 1).val = (y 1).val; rw [show win0_9.index t 1 = 0 from rfl]; omega

/-- Window 11 stages the whole `[32, 3]` weight matrix at every point: its one block is the array. -/
theorem weights11 (c : Dev nD) (t : Fin cfg0.N) : (iblk m c 11 t : Vec Ideal S32x3 .f32) = m ((c : Thread nD τ).loc main_arg11) := by
  funext y
  unfold iblk
  rw [View.read_apply]
  show V m c main_arg11 _ = _
  rw [V_main_arg11]
  refine congrArg (m ((c : Thread nD τ).loc main_arg11)) (funext fun a => Fin.ext ?_)
  match a with
  | ⟨0, _⟩ => show win0_11.index t 0 * 32 + 1 * (y 0).val = (y 0).val; rw [show win0_11.index t 0 = 0 from rfl]; omega
  | ⟨1, _⟩ => show win0_11.index t 1 * 3 + 1 * (y 1).val = (y 1).val; rw [show win0_11.index t 1 = 0 from rfl]; omega

/-- Window 2 stages the `[32]` bias vector reshaped to one row, whole at every point: the row is the vector. -/
theorem bias2 (c : Dev nD) (t : Fin cfg0.N) : rowOf (iblk m c 2 t : Vec Ideal S1x32 .f32) 0 = fun j => m ((c : Thread nD τ).loc main_arg2) (ix1 j) := by
  have hv : (V m c main_v0 : S1x32.Idx → EReal) = shapeCast S1x32 (m ((c : Thread nD τ).loc main_arg2)) shapeCasts_S32_S1x32 := by
    dsimp only [Gen.V, Gen.hostOps0]; after_results; rfl
  funext j
  show iblk m c 2 t (ix2 0 j) = _
  unfold iblk
  rw [View.read_apply]
  show V m c main_v0 _ = _
  rw [hv]
  refine (congrArg _ (funext fun a => Fin.ext ?_)).trans (shapeCast_a_1a_apply (m ((c : Thread nD τ).loc main_arg2)) shapeCasts_S32_S1x32 0 j)
  match a with
  | ⟨0, _⟩ => show win0_2.index t 0 * 1 + 1 * 0 = 0; rw [show win0_2.index t 0 = 0 from rfl]
  | ⟨1, _⟩ => show win0_2.index t 1 * 32 + 1 * j.val = j.val; rw [show win0_2.index t 1 = 0 from rfl]; omega

/-- Window 4 stages the `[32]` bias vector reshaped to one row, whole at every point: the row is the vector. -/
theorem bias4 (c : Dev nD) (t : Fin cfg0.N) : rowOf (iblk m c 4 t : Vec Ideal S1x32 .f32) 0 = fun j => m ((c : Thread nD τ).loc main_arg4) (ix1 j) := by
  have hv : (V m c main_v1 : S1x32.Idx → EReal) = shapeCast S1x32 (m ((c : Thread nD τ).loc main_arg4)) shapeCasts_S32_S1x32 := by
    dsimp only [Gen.V, Gen.hostOps0]; after_results; rfl
  funext j
  show iblk m c 4 t (ix2 0 j) = _
  unfold iblk
  rw [View.read_apply]
  show V m c main_v1 _ = _
  rw [hv]
  refine (congrArg _ (funext fun a => Fin.ext ?_)).trans (shapeCast_a_1a_apply (m ((c : Thread nD τ).loc main_arg4)) shapeCasts_S32_S1x32 0 j)
  match a with
  | ⟨0, _⟩ => show win0_4.index t 0 * 1 + 1 * 0 = 0; rw [show win0_4.index t 0 = 0 from rfl]
  | ⟨1, _⟩ => show win0_4.index t 1 * 32 + 1 * j.val = j.val; rw [show win0_4.index t 1 = 0 from rfl]; omega

/-- Window 6 stages the `[32]` bias vector reshaped to one row, whole at every point: the row is the vector. -/
theorem bias6 (c : Dev nD) (t : Fin cfg0.N) : rowOf (iblk m c 6 t : Vec Ideal S1x32 .f32) 0 = fun j => m ((c : Thread nD τ).loc main_arg6) (ix1 j) := by
  have hv : (V m c main_v2 : S1x32.Idx → EReal) = shapeCast S1x32 (m ((c : Thread nD τ).loc main_arg6)) shapeCasts_S32_S1x32 := by
    dsimp only [Gen.V, Gen.hostOps0]; after_results; rfl
  funext j
  show iblk m c 6 t (ix2 0 j) = _
  unfold iblk
  rw [View.read_apply]
  show V m c main_v2 _ = _
  rw [hv]
  refine (congrArg _ (funext fun a => Fin.ext ?_)).trans (shapeCast_a_1a_apply (m ((c : Thread nD τ).loc main_arg6)) shapeCasts_S32_S1x32 0 j)
  match a with
  | ⟨0, _⟩ => show win0_6.index t 0 * 1 + 1 * 0 = 0; rw [show win0_6.index t 0 = 0 from rfl]
  | ⟨1, _⟩ => show win0_6.index t 1 * 32 + 1 * j.val = j.val; rw [show win0_6.index t 1 = 0 from rfl]; omega

/-- Window 8 stages the `[1]` bias vector reshaped to one row, whole at every point: the row is the vector. -/
theorem bias8 (c : Dev nD) (t : Fin cfg0.N) : rowOf (iblk m c 8 t : Vec Ideal S1x1 .f32) 0 = fun j => m ((c : Thread nD τ).loc main_arg8) (ix1 j) := by
  have hv : (V m c main_v3 : S1x1.Idx → EReal) = shapeCast S1x1 (m ((c : Thread nD τ).loc main_arg8)) shapeCasts_S1_S1x1 := by
    dsimp only [Gen.V, Gen.hostOps0]; after_results; rfl
  funext j
  show iblk m c 8 t (ix2 0 j) = _
  unfold iblk
  rw [View.read_apply]
  show V m c main_v3 _ = _
  rw [hv]
  refine (congrArg _ (funext fun a => Fin.ext ?_)).trans (shapeCast_a_1a_apply (m ((c : Thread nD τ).loc main_arg8)) shapeCasts_S1_S1x1 0 j)
  match a with
  | ⟨0, _⟩ => show win0_8.index t 0 * 1 + 1 * 0 = 0; rw [show win0_8.index t 0 = 0 from rfl]
  | ⟨1, _⟩ => show win0_8.index t 1 * 1 + 1 * j.val = j.val; rw [show win0_8.index t 1 = 0 from rfl]; omega

/-- Window 10 stages the `[32]` bias vector reshaped to one row, whole at every point: the row is the vector. -/
theorem bias10 (c : Dev nD) (t : Fin cfg0.N) : rowOf (iblk m c 10 t : Vec Ideal S1x32 .f32) 0 = fun j => m ((c : Thread nD τ).loc main_arg10) (ix1 j) := by
  have hv : (V m c main_v4 : S1x32.Idx → EReal) = shapeCast S1x32 (m ((c : Thread nD τ).loc main_arg10)) shapeCasts_S32_S1x32 := by
    dsimp only [Gen.V, Gen.hostOps0]; after_results; rfl
  funext j
  show iblk m c 10 t (ix2 0 j) = _
  unfold iblk
  rw [View.read_apply]
  show V m c main_v4 _ = _
  rw [hv]
  refine (congrArg _ (funext fun a => Fin.ext ?_)).trans (shapeCast_a_1a_apply (m ((c : Thread nD τ).loc main_arg10)) shapeCasts_S32_S1x32 0 j)
  match a with
  | ⟨0, _⟩ => show win0_10.index t 0 * 1 + 1 * 0 = 0; rw [show win0_10.index t 0 = 0 from rfl]
  | ⟨1, _⟩ => show win0_10.index t 1 * 32 + 1 * j.val = j.val; rw [show win0_10.index t 1 = 0 from rfl]; omega

/-- Window 12 stages the `[3]` bias vector reshaped to one row, whole at every point: the row is the vector. -/
theorem bias12 (c : Dev nD) (t : Fin cfg0.N) : rowOf (iblk m c 12 t : Vec Ideal S1x3 .f32) 0 = fun j => m ((c : Thread nD τ).loc main_arg12) (ix1 j) := by
  have hv : (V m c main_v5 : S1x3.Idx → EReal) = shapeCast S1x3 (m ((c : Thread nD τ).loc main_arg12)) shapeCasts_S3_S1x3 := by
    dsimp only [Gen.V, Gen.hostOps0]; after_results; rfl
  funext j
  show iblk m c 12 t (ix2 0 j) = _
  unfold iblk
  rw [View.read_apply]
  show V m c main_v5 _ = _
  rw [hv]
  refine (congrArg _ (funext fun a => Fin.ext ?_)).trans (shapeCast_a_1a_apply (m ((c : Thread nD τ).loc main_arg12)) shapeCasts_S3_S1x3 0 j)
  match a with
  | ⟨0, _⟩ => show win0_12.index t 0 * 1 + 1 * 0 = 0; rw [show win0_12.index t 0 = 0 from rfl]
  | ⟨1, _⟩ => show win0_12.index t 1 * 3 + 1 * j.val = j.val; rw [show win0_12.index t 1 = 0 from rfl]; omega

/-! ## What a point writes back, and the cover -/

/-- WHAT POINT `t` WRITES BACK is block `t` of the network of the argument arrays. -/
theorem flushed_eq (c : Dev nD) (t : Fin cfg0.N) :
    (dats m 0 c).flushed 13 t = ((cfg0.win 13).blk t).view.read (Elt Ideal) (Mlp.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) := by
  rw [Value.flushed13]
  unfold out0_13
  rw [View.canon_unit_zero offsets_zero]
  simp only [View.ld_unit_zero (S := S2048x6) offsets_zero, View.ld_unit_zero (S := S3x32) offsets_zero, View.ld_unit_zero (S := S1x32) offsets_zero,
    View.ld_unit_zero (S := S32x32) offsets_zero, View.ld_unit_zero (S := S32x1) offsets_zero, View.ld_unit_zero (S := S1x1) offsets_zero,
    View.ld_unit_zero (S := S35x32) offsets_zero, View.ld_unit_zero (S := S32x3) offsets_zero, View.ld_unit_zero (S := S1x3) offsets_zero]
  funext j
  have hrow : (((cfg0.win 13).blk t).view.emb j 0).val = t.val * 2048 + (j 0).val := by
    show win0_13.index t 0 * 2048 + 1 * (j 0).val = _
    rw [show win0_13.index t 0 = win0_13.index t ⟨0, by decide⟩ from rfl, Value.idx_pt13 t]; omega
  have hcol : ((cfg0.win 13).blk t).view.emb j 1 = j 1 := Fin.ext (by
    show win0_13.index t 1 * 4 + 1 * (j 1).val = (j 1).val
    rw [show win0_13.index t 1 = 0 from rfl]; omega)
  refine (apply_eq_rowOf _ j).trans ?_
  refine (congrFun (Rows.stored_row (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (j 0)) (j 1)).trans ?_
  rw [input_row m c t (j 0) (((cfg0.win 13).blk t).view.emb j 0) hrow, weights1, weights3, weights5, weights7, weights9, weights11,
    bias2, bias4, bias6, bias8, bias10, bias12]
  exact congrArg _ hcol.symm

/-- An index of the result is in point `t`'s block iff its row is among rows `2048·t … 2048·t + 2047` (and its column among the four). -/
theorem mem_blk (t : Fin cfg0.N) (i : S4194304x4.Idx) :
    i ∈ ((cfg0.win 13).blk t).view.set ↔ ∀ a : Fin 2, win0_13.index t a * S2048x4.size a ≤ (i a).val ∧ (i a).val < win0_13.index t a * S2048x4.size a + S2048x4.size a := by
  show i ∈ ((View.whole main_v6).slice (win0_13.rect t)).set ↔ _
  rw [View.set_slice_whole, Rect.mem_set_unit]
  exact Iff.rfl

/-- Every index of the result is in some point's block: row `r` is in block `r / 2048`. -/
theorem covered (i : S4194304x4.Idx) : ∃ t : Fin cfg0.N, (cfg0.win 13).flush t = true ∧ i ∈ ((cfg0.win 13).blk t).view.set := by
  have hi0 : (i 0).val < 4194304 := (i 0).isLt
  have hi1 : (i 1).val < 4 := (i 1).isLt
  refine ⟨⟨(i 0).val / 2048, by rw [show cfg0.N = 2048 from N_0]; omega⟩, flush0_13 _, ?_⟩
  rw [mem_blk]
  intro a
  match a with
  | ⟨0, _⟩ =>
    show win0_13.index _ 0 * 2048 ≤ (i 0).val ∧ (i 0).val < win0_13.index _ 0 * 2048 + 2048
    rw [show win0_13.index _ 0 = win0_13.index _ ⟨0, by decide⟩ from rfl, Value.idx_pt13]
    show (i 0).val / 2048 * 2048 ≤ (i 0).val ∧ (i 0).val < (i 0).val / 2048 * 2048 + 2048
    omega
  | ⟨1, _⟩ =>
    show win0_13.index _ 1 * 4 ≤ (i 1).val ∧ (i 1).val < win0_13.index _ 1 * 4 + 4
    rw [show win0_13.index _ 1 = 0 from rfl]; omega

/-- THE RESULT ARRAY after the run is the network of the argument arrays. -/
theorem final (c : Dev nD) : (dats m 0 c).arrAt 13 cfg0.N = Mlp.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (dats m 0 c).arrAt_eq_of_cover 13 _ (fun t _ => flushed_eq m c t) covered

/-- The kernel's run, read: the result at the network of the arguments, the arguments unchanged. -/
theorem run : θ_run defs (onTc (τ := τ) (main (F := Ideal))) ⟨m, fun _ => 0, ρ⟩ fun r => ∀ c : Dev nD,
      r.2.mem ((c : Thread nD τ).loc main_v6) = Mlp.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (Value.run_blocks m ρ)

end Cert.KernelIdeal.Whole

end
-- ==== Proof.ReferenceRows.lean ====
/-
  The reference, read one row at a time.

  The reference computes the same network on the whole `[4194304, 6]` input with the host's operations: slices of
  columns, products that contract the left operand's columns with the right one's rows (`ref_*`), bias vectors
  given a unit leading axis and broadcast down the rows, maxima with a broadcast zero, concatenations of
  columns. So row `n` of each intermediate array is the corresponding layer of row `n` of the input, and the
  result array is `Mlp.network` of the arguments (`result_eq`).
-/
import proofs.«122046_j1039382086435_2_alg».proof.Proof.Gen.ReferenceIdeal.Read
import proofs.«122046_j1039382086435_2_alg».proof.Proof.Mlp

noncomputable section

namespace Cert.ReferenceIdeal.Rows

open Cert.ReferenceIdeal Cert.ReferenceIdeal.Gen Idealize.ShloMosaic Idealize.ShloMosaic.ValueIdx Cert.RowLayers

/-! ## The five products -/

/-- The first layer's product, `[4194304, 3] × [3, 32]`, is rows times columns. -/
theorem ref_3_32 : RowsTimesCols dot_S4194304x3_S3x32_S4194304x32_1_0_0_1_n_n :=
  ⟨rfl, rfl, Read.lhs_main_v2_0, Read.lhs_main_v2_1, Read.rhs_main_v2_0, Read.rhs_main_v2_1⟩

/-- The `[4194304, 32] × [32, 32]` products (second layer, features) are rows times columns. -/
theorem ref_32_32 : RowsTimesCols dot_S4194304x32_S32x32_S4194304x32_1_0_0_1_n_n :=
  ⟨rfl, rfl, Read.lhs_main_v7_0, Read.lhs_main_v7_1, Read.rhs_main_v7_0, Read.rhs_main_v7_1⟩

/-- The density's product, `[4194304, 32] × [32, 1]`, is rows times columns. -/
theorem ref_32_1 : RowsTimesCols dot_S4194304x32_S32x1_S4194304x1_1_0_0_1_n_n :=
  ⟨rfl, rfl, Read.lhs_main_v12_0, Read.lhs_main_v12_1, Read.rhs_main_v12_0, Read.rhs_main_v12_1⟩

/-- The view layer's product, `[4194304, 35] × [35, 32]`, is rows times columns. -/
theorem ref_35_32 : RowsTimesCols dot_S4194304x35_S35x32_S4194304x32_1_0_0_1_n_n :=
  ⟨rfl, rfl, Read.lhs_main_v21_0, Read.lhs_main_v21_1, Read.rhs_main_v21_0, Read.rhs_main_v21_1⟩

/-- The colour layer's product, `[4194304, 32] × [32, 3]`, is rows times columns. -/
theorem ref_32_3 : RowsTimesCols dot_S4194304x32_S32x3_S4194304x3_1_0_0_1_n_n :=
  ⟨rfl, rfl, Read.lhs_main_v26_0, Read.lhs_main_v26_1, Read.rhs_main_v26_0, Read.rhs_main_v26_1⟩

/-! ## The stages on a row -/

/-- The hidden row after the two rectified layers, from row `n` of the input. -/
theorem hidden_row (x0 : (⟨S4194304x6, .f32⟩ : BufTy).Contents (Elt Ideal)) (x1 : (⟨S3x32, .f32⟩ : BufTy).Contents (Elt Ideal)) (x2 : (⟨S32, .f32⟩ : BufTy).Contents (Elt Ideal)) (x3 : (⟨S32x32, .f32⟩ : BufTy).Contents (Elt Ideal)) (x4 : (⟨S32, .f32⟩ : BufTy).Contents (Elt Ideal)) (n : Fin 4194304) :
    rowOf (Read.val_main_v11 (F := Ideal) x0 x1 x2 x3 x4) n
      = Mlp.hidden (rowOf x0 n) x1 (fun j => x2 (ix1 j)) x3 (fun j => x4 (ix1 j)) := by
  unfold Read.val_main_v11 Read.val_main_call1_v0 Read.val_main_call1_cst Read.val_main_v10 Read.val_main_v9 Read.val_main_v8
    Read.val_main_v7 Read.val_main_v6 Read.val_main_call0_v0 Read.val_main_call0_cst Read.val_main_v5 Read.val_main_v4
    Read.val_main_v3 Read.val_main_v2 Read.val_main_v0 Mlp.hidden
  rw [rowOf_maximumf_const, rowOf_dense_host ref_32_32, rowOf_maximumf_const, rowOf_dense_host ref_3_32, rowOf_slice_cols]

/-- The feature row: a dense layer of the hidden row. -/
theorem feature_row (x0 : (⟨S4194304x6, .f32⟩ : BufTy).Contents (Elt Ideal)) (x1 : (⟨S3x32, .f32⟩ : BufTy).Contents (Elt Ideal)) (x2 : (⟨S32, .f32⟩ : BufTy).Contents (Elt Ideal)) (x3 : (⟨S32x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (n : Fin 4194304) :
    rowOf (Read.val_main_v19 (F := Ideal) x0 x1 x2 x3 x4 x5 x6) n
      = dense (Mlp.hidden (rowOf x0 n) x1 (fun j => x2 (ix1 j)) x3 (fun j => x4 (ix1 j))) x5 (fun j => x6 (ix1 j)) := by
  unfold Read.val_main_v19 Read.val_main_v18 Read.val_main_v17 Read.val_main_v16
  rw [rowOf_dense_host ref_32_32, hidden_row]

/-- The density row (one entry): a dense layer of the hidden row. -/
theorem density_row (x0 : (⟨S4194304x6, .f32⟩ : BufTy).Contents (Elt Ideal)) (x1 : (⟨S3x32, .f32⟩ : BufTy).Contents (Elt Ideal)) (x2 : (⟨S32, .f32⟩ : BufTy).Contents (Elt Ideal)) (x3 : (⟨S32x32, .f32⟩ : BufTy).Contents (Elt Ideal)) (x4 : (⟨S32, .f32⟩ : BufTy).Contents (Elt Ideal)) (x7 : (⟨S32x1, .f32⟩ : BufTy).Contents (Elt Ideal)) (x8 : (⟨S1, .f32⟩ : BufTy).Contents (Elt Ideal)) (n : Fin 4194304) :
    rowOf (Read.val_main_v15 (F := Ideal) x0 x1 x2 x3 x4 x7 x8) n
      = dense (Mlp.hidden (rowOf x0 n) x1 (fun j => x2 (ix1 j)) x3 (fun j => x4 (ix1 j))) x7 (fun j => x8 (ix1 j)) := by
  unfold Read.val_main_v15 Read.val_main_v14 Read.val_main_v13 Read.val_main_v12
  rw [rowOf_dense_host ref_32_1, hidden_row]

/-- Row `n` of the reference's result is the network's row function of row `n` of the input. -/
theorem result_row (x0 : (⟨S4194304x6, .f32⟩ : BufTy).Contents (Elt Ideal)) (x1 : (⟨S3x32, .f32⟩ : BufTy).Contents (Elt Ideal)) (x2 : (⟨S32, .f32⟩ : BufTy).Contents (Elt Ideal)) (x3 : (⟨S32x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S32x1, .f32⟩ : BufTy).Contents (Elt Ideal)) (x8 : (⟨S1, .f32⟩ : BufTy).Contents (Elt Ideal)) (x9 : (⟨S35x32, .f32⟩ : BufTy).Contents (Elt Ideal)) (x10 : (⟨S32, .f32⟩ : BufTy).Contents (Elt Ideal)) (x11 : (⟨S32x3, .f32⟩ : BufTy).Contents (Elt Ideal)) (x12 : (⟨S3, .f32⟩ : BufTy).Contents (Elt Ideal)) (n : Fin 4194304) :
    rowOf (Read.val_main_v30 (F := Ideal) x0 x1 x2 x3 x4 x5 x6 x7 x8 x9 x10 x11 x12) n
      = Mlp.row (rowOf x0 n) x1 (fun j => x2 (ix1 j)) x3 (fun j => x4 (ix1 j)) x5 (fun j => x6 (ix1 j))
          x7 (fun j => x8 (ix1 j)) x9 (fun j => x10 (ix1 j)) x11 (fun j => x12 (ix1 j)) := by
  unfold Read.val_main_v30 Read.val_main_v29 Read.val_main_v28 Read.val_main_v27 Read.val_main_v26 Read.val_main_v25
    Read.val_main_call2_v0 Read.val_main_call2_cst Read.val_main_v24 Read.val_main_v23 Read.val_main_v22 Read.val_main_v21
    Read.val_main_v20 Read.val_main_v1 Mlp.row
  rw [rowOf_concat_cols (A := 3) (B := 1) (C := 4) _ _ _ rfl, rowOf_dense_host ref_32_3, rowOf_maximumf_const, rowOf_dense_host ref_35_32,
    rowOf_concat_cols (A := 32) (B := 3) (C := 35) _ _ _ rfl, feature_row, rowOf_slice_cols, density_row]

/-- The reference's result array is the network of its arguments. -/
theorem result_eq (x0 : (⟨S4194304x6, .f32⟩ : BufTy).Contents (Elt Ideal)) (x1 : (⟨S3x32, .f32⟩ : BufTy).Contents (Elt Ideal)) (x2 : (⟨S32, .f32⟩ : BufTy).Contents (Elt Ideal)) (x3 : (⟨S32x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S32x1, .f32⟩ : BufTy).Contents (Elt Ideal)) (x8 : (⟨S1, .f32⟩ : BufTy).Contents (Elt Ideal)) (x9 : (⟨S35x32, .f32⟩ : BufTy).Contents (Elt Ideal)) (x10 : (⟨S32, .f32⟩ : BufTy).Contents (Elt Ideal)) (x11 : (⟨S32x3, .f32⟩ : BufTy).Contents (Elt Ideal)) (x12 : (⟨S3, .f32⟩ : BufTy).Contents (Elt Ideal)) :
    Read.val_main_v30 (F := Ideal) x0 x1 x2 x3 x4 x5 x6 x7 x8 x9 x10 x11 x12
      = Mlp.network x0 x1 x2 x3 x4 x5 x6 x7 x8 x9 x10 x11 x12 := by
  funext i
  exact (apply_eq_rowOf _ i).trans (congrFun (result_row x0 x1 x2 x3 x4 x5 x6 x7 x8 x9 x10 x11 x12 (i 0)) (i 1))

end Cert.ReferenceIdeal.Rows

end
-- ==== Proof.lean ====
/-
  A point-wise multilayer perceptron on 4194304 six-entry rows (a point and a viewing direction): a fused device
  kernel over 2048 blocks of 2048 rows against the plain array program.

  Over the extended reals both programs compute ONE function of the thirteen argument arrays, `Mlp.network`: row `n`
  of the result is `Mlp.row` of row `n` of the input — two rectified dense layers on the point, a feature layer and
  a density layer on the hidden row, a rectified dense layer on the features joined with the viewing direction, a
  colour layer, and the colours joined with the density. The kernel rounds its matrix operands to a shorter float
  format, which is the identity on extended reals, and multiplies into a zero accumulator; the reference multiplies
  with no accumulator; both products are the same finite sums `∑ k, h k · w[k, j]` in the same order, so no law of
  arithmetic beyond `0 + s = s` is used and the inputs' finiteness is never needed.

  `KernelRows` reads the kernel's stored block row by row, `KernelArray` assembles the 2048 blocks into the whole
  array, `ReferenceRows` reads the reference's stages row by row; the frames are the generated ones (the reference's
  is its run with the result dropped), and the idealization rewrote nothing, so `preserves` is `True`.
-/
import proofs.«122046_j1039382086435_2_alg».proof.Defs
import proofs.«122046_j1039382086435_2_alg».proof.Proof.Gen.Kernel
import proofs.«122046_j1039382086435_2_alg».proof.Proof.Gen.Kernel.Skeleton
import proofs.«122046_j1039382086435_2_alg».proof.Proof.Gen.Kernel.Launch
import proofs.«122046_j1039382086435_2_alg».proof.Proof.Gen.Kernel.Points
import proofs.«122046_j1039382086435_2_alg».proof.Proof.Gen.Kernel.Frame
import proofs.«122046_j1039382086435_2_alg».proof.Proof.Gen.KernelIdeal
import proofs.«122046_j1039382086435_2_alg».proof.Proof.Gen.KernelIdeal.Skeleton
import proofs.«122046_j1039382086435_2_alg».proof.Proof.Gen.KernelIdeal.Launch
import proofs.«122046_j1039382086435_2_alg».proof.Proof.Gen.KernelIdeal.Points
import proofs.«122046_j1039382086435_2_alg».proof.Proof.Gen.KernelIdeal.Frame
import proofs.«122046_j1039382086435_2_alg».proof.Proof.Gen.ReferenceIdeal
import proofs.«122046_j1039382086435_2_alg».proof.Proof.Gen.Pre_finite_inputs
import proofs.«122046_j1039382086435_2_alg».proof.Proof.Gen.KernelIdeal.Value
import proofs.«122046_j1039382086435_2_alg».proof.Proof.Gen.ReferenceIdeal.Run
import proofs.«122046_j1039382086435_2_alg».proof.Proof.Gen.ReferenceIdeal.Read
import proofs.«122046_j1039382086435_2_alg».proof.Proof.KernelArray
import proofs.«122046_j1039382086435_2_alg».proof.Proof.ReferenceRows
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the thirteen arguments both programs end with the result array at `Mlp.network` of
    the arguments: the kernel block by block (`Whole.run`), the reference stage by stage (`Rows.result_eq`). -/
theorem algebraic : Cert.algebraic_KernelIdeal_ReferenceIdeal := by
  intro m ρ m' ρ' _ hagree
  refine ⟨fun c => Mlp.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12⟩ := hagree c
  rw [Cert.ReferenceIdeal.Read.val_main_v30_eq, Cert.ReferenceIdeal.Rows.result_eq, e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
